-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S4x4096x1024 .f32) (main_arg2 : FVec F S4x4096x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S16384x1024 : Shape := ⟨2, ![16384, 1024]⟩
abbrev S4x4096x4096 : Shape := ⟨3, ![4, 4096, 4096]⟩
abbrev S1x256x1024 : Shape := ⟨3, ![1, 256, 1024]⟩
abbrev S1x4096x1024 : Shape := ⟨3, ![1, 4096, 1024]⟩
abbrev S1x256x4096 : Shape := ⟨3, ![1, 256, 4096]⟩
abbrev S256x1024 : Shape := ⟨2, ![256, 1024]⟩
abbrev S4096x1024 : Shape := ⟨2, ![4096, 1024]⟩
abbrev S256x4096 : Shape := ⟨2, ![256, 4096]⟩
abbrev S256 : Shape := ⟨1, ![256]⟩
abbrev S256x1 : Shape := ⟨2, ![256, 1]⟩

abbrev nBuf : Space → Nat
  | .hbm => 13
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .bf16⟩
  | .hbm, ⟨7, _⟩ => ⟨S16384x1024, .bf16⟩
  | .hbm, ⟨8, _⟩ => ⟨S16384x1024, .bf16⟩
  | .hbm, ⟨9, _⟩ => ⟨S4x4096x1024, .bf16⟩
  | .hbm, ⟨10, _⟩ => ⟨S4x4096x1024, .bf16⟩
  | .hbm, ⟨11, _⟩ => ⟨S4x4096x1024, .f32⟩
  | .hbm, ⟨12, _⟩ => ⟨S4x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x256x1024, .f32⟩
  | .local _ .vmem, ⟨10, _⟩ => ⟨S1x256x1024, .f32⟩
  | .local _ .vmem, ⟨11, _⟩ => ⟨S1x4096x1024, .bf16⟩
  | .local _ .vmem, ⟨12, _⟩ => ⟨S1x4096x1024, .bf16⟩
  | .local _ .vmem, ⟨13, _⟩ => ⟨S1x256x1024, .f32⟩
  | .local _ .vmem, ⟨14, _⟩ => ⟨S1x256x1024, .f32⟩
  | .local _ .vmem, ⟨15, _⟩ => ⟨S1x256x4096, .f32⟩
  | .local _ .vmem, ⟨16, _⟩ => ⟨S1x256x4096, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x4096x1024_S16384x1024 : S4x4096x1024.ShapeCasts S16384x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S16384x1024_S4x4096x1024 : S16384x1024.ShapeCasts S4x4096x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  reduces_S256x4096_S256 : S256x4096.Reduces [1] S256
  shapeCasts_S256_S256x1 : S256.ShapeCasts S256x1
  broadcasts_S256x1_S256x4096 : S256x1.Broadcasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  shapeCasts_S256x1024_S1x256x1024 : S256x1024.ShapeCasts S1x256x1024
  dot_S1024x1024_S1024x1024_S1024x1024_1_1_0_0_n_n_wf : DotDims.WF S1024x1024 S1024x1024 S1024x1024 [1] [1] [0] [0] [] []
  dot_S256x1024_S4096x1024_S256x4096_1_1_0_0_n_n_wf : DotDims.WF S256x1024 S4096x1024 S256x4096 [1] [1] [0] [0] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .bf16 = 32 ∨ (Rect.block (s := S16384x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .bf16 = 32 ∨ (Rect.block (s := S16384x1024) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x4096x1024.size a
  hwx1_0 : ∀ i : grid1.Coords, EltTy.bits .f32 = 32 ∨ (Rect.block (s := S4x4096x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096x1024.size a ≤ S4x4096x1024.size a
  hwx1_1 : ∀ i : grid1.Coords, EltTy.bits .bf16 = 32 ∨ (Rect.block (s := S4x4096x1024) S1x4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096x1024.size a ≤ S4x4096x1024.size a
  hwx1_2 : ∀ i : grid1.Coords, EltTy.bits .bf16 = 32 ∨ (Rect.block (s := S4x4096x1024) S1x4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S4x4096x1024.size a
  hwx1_3 : ∀ i : grid1.Coords, EltTy.bits .f32 = 32 ∨ (Rect.block (s := S4x4096x1024) S1x256x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x4096.size a ≤ S4x4096x4096.size a
  hwx1_4 : ∀ i : grid1.Coords, EltTy.bits .f32 = 32 ∨ (Rect.block (s := S4x4096x4096) S1x256x4096.size (cc1_transform_4 i) (hinb1_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg2) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6_0) S1x256x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6_1) S1x256x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x1024, .f32⟩
  | .hbm, ⟨4, _⟩ => ⟨S4x4096x1024, .f32⟩
  | .hbm, ⟨5, _⟩ => ⟨S4x4096x4096, .f32⟩
  | .hbm, ⟨6, _⟩ => ⟨S_, .f32⟩
  | .hbm, ⟨7, _⟩ => ⟨S4x4096, .f32⟩
  | .hbm, ⟨8, _⟩ => ⟨S_, .f32⟩
  | .hbm, ⟨9, _⟩ => ⟨S4x4096, .f32⟩
  | .hbm, ⟨10, _⟩ => ⟨S4x4096, .f32⟩
  | .hbm, ⟨11, _⟩ => ⟨S4x4096x1, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.KernelRun.lean ====
/-
  The idealized kernel's run with its two results named.

  The program is two kernel regions among stretches of host operations. Its run ends with every buffer that outlives a
  region at the contents obtained by folding the stretches and the regions' write-backs from the launch memory; the frame
  statement keeps of that only the four arguments. Here the same run is stated once more keeping also the two result
  buffers, each at that fold's contents, which the value proof then reads.
-/
import proofs.«137832_j45165876084978_2_alg».proof.Proof.Gen.KernelIdeal.Frame

set_option maxRecDepth 16384

noncomputable section

namespace Cert.Luong.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault, and ends with the result buffers
    at the final fold's contents and the four arguments as launched. -/
theorem run_results : θ_run defs (onTc (τ := τ) (main (F := F))) ⟨m, fun _ => 0, ρ⟩ (fun r => ∀ c : Dev nD,
      r.2.mem ((c.tc : Thread nD τ).loc main_v6_0) = W4 m ρ c (Proc.devRef .tc main_v6_0)
      ∧ r.2.mem ((c.tc : Thread nD τ).loc main_v6_1) = W4 m ρ c (Proc.devRef .tc main_v6_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6_0 (by decide)),
       h c _ (mem_uc main_v6_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.Luong.Run

end
-- ==== Proof.LibSoftmaxShift.lean ====
/-
  The stable softmax on the extended reals, and its invariance under a common real shift.

  For finitely many scores l the weight of entry k is taken as
      exp (l k − max_j l j) / Σ_j exp (l j − max_j l j),
  the maximum running from −∞. Adding one real number e to every score changes nothing: the maximum moves by e too
  (adding a real is monotone and fixes −∞), so every difference l k − max_j l j stays as it was. On the extended reals
  this holds with no finiteness assumption on the scores, because an infinite score or maximum absorbs e on both sides
  of the difference. Generic in the number of scores.
-/
import Idealize.ShloMosaic.PureOps.Ideal
import Idealize.ShloMosaic.PureOps.Ideal.Laws

noncomputable section

open scoped BigOperators

namespace Cert.LibSoftmaxShift

open Idealize.ShloMosaic

/-- The f32 word of −∞ denotes the bottom of the extended reals. -/
theorem ofBits_neg_inf : Ideal.ofBits .f32 0xFF800000#32 = ⊥ := by
  simp [Ideal.ofBits, Ideal.ieee]

/-- The largest of finitely many extended reals, from −∞. -/
def top {K : Nat} (l : Fin K → EReal) : EReal := (Finset.univ : Finset (Fin K)).fold max ⊥ l

/-- The softmax weight of entry k among the scores l, in the stable form. -/
def weight {K : Nat} (l : Fin K → EReal) (k : Fin K) : EReal :=
  Ideal.div (Ideal.exp (l k - top l)) (∑ j : Fin K, Ideal.exp (l j - top l))

/-- A common real shift leaves a difference unchanged, whatever the two extended reals are. -/
theorem shift_sub (a b : EReal) (e : ℝ) : (a + (e : EReal)) - (b + (e : EReal)) = a - b := by
  induction a using EReal.rec with
  | bot =>
    induction b using EReal.rec with
    | bot => simp
    | top => simp
    | coe y => rw [EReal.bot_add, ← EReal.coe_add, EReal.bot_sub, EReal.bot_sub]
  | top =>
    induction b using EReal.rec with
    | bot => simp
    | top => simp
    | coe y => rw [EReal.top_add_coe, ← EReal.coe_add, EReal.top_sub_coe, EReal.top_sub_coe]
  | coe x =>
    induction b using EReal.rec with
    | bot => rw [EReal.bot_add, ← EReal.coe_add, EReal.coe_sub_bot, EReal.coe_sub_bot]
    | top =>
      rw [EReal.top_add_coe, ← EReal.coe_add, sub_eq_add_neg, sub_eq_add_neg, EReal.neg_top, EReal.add_bot,
        EReal.add_bot]
    | coe y =>
      rw [← EReal.coe_add, ← EReal.coe_add, ← EReal.coe_sub, ← EReal.coe_sub]
      exact congrArg _ (by ring)

/-- The maximum of shifted scores is the shifted maximum: adding a real is monotone and fixes −∞. -/
theorem top_shift {K : Nat} (l : Fin K → EReal) (e : ℝ) : top (fun k => l k + (e : EReal)) = top l + (e : EReal) := by
  unfold top
  have h := Finset.fold_hom (op := (max : EReal → EReal → EReal)) (op' := (max : EReal → EReal → EReal))
    (m := fun x : EReal => x + (e : EReal)) (s := (Finset.univ : Finset (Fin K))) (b := (⊥ : EReal)) (f := l)
    (fun x y => Monotone.map_max (f := fun x : EReal => x + (e : EReal)) (fun _ _ hxy => add_le_add hxy le_rfl))
  rw [EReal.bot_add] at h
  exact h

/-- The weights do not see a common real shift of the scores. -/
theorem weight_shift {K : Nat} (l : Fin K → EReal) (e : ℝ) (k : Fin K) :
    weight (fun j => l j + (e : EReal)) k = weight l k := by
  unfold weight
  simp only [top_shift, shift_sub]

end Cert.LibSoftmaxShift

end
-- ==== Proof.Attention.lean ====
/-
  Luong (unscaled dot-product) attention with a projected key, as functions of the four argument arrays, index by index,
  on the extended reals.

  With value, key, query of shape [4, 4096, 1024] and the weight W of shape [1024, 1024]:
    projected b s j = Σ_d key(b, s, d) · W(j, d)                        the key times the transposed weight
    score b q s     = Σ_d query(b, q, d) · projected b s d              no 1/√d scaling
    weights(b,q,s)  = exp(score b q s − max_s' score b q s') / Σ_s' exp(score b q s' − max_s'' score b q s'')
    result(b,q,v)   = Σ_s weights(b, q, s) · value(b, s, v)
  the maximum running from −∞ over the 4096 keys. Both programs compute exactly this composition, in this order of
  operations; no law of the extended reals beyond reading each operation at an index is needed, so no finiteness is.
-/
import Idealize.ShloMosaic.PureOps.Ideal
import Idealize.ShloMosaic.Lib.ValueIdx
import proofs.«137832_j45165876084978_2_alg».proof.Proof.LibSoftmaxShift

noncomputable section

open scoped BigOperators

namespace Cert.Luong

open Idealize.ShloMosaic Idealize.ShloMosaic.ValueIdx Cert.LibSoftmaxShift

/-- An array of the arguments' common shape [4, 4096, 1024], on the extended reals. -/
abbrev Arr3 : Type := (⟨3, ![4, 4096, 1024]⟩ : Shape).Idx → EReal
/-- The weight's shape [1024, 1024]. -/
abbrev Mat : Type := (⟨2, ![1024, 1024]⟩ : Shape).Idx → EReal
/-- The attention weights' shape [4, 4096, 4096]. -/
abbrev Att : Type := (⟨3, ![4, 4096, 4096]⟩ : Shape).Idx → EReal

/-- The key of batch `b`, position `s`, projected by the transposed weight, at feature `j`. -/
def projected (key : Arr3) (W : Mat) (b : Fin 4) (s : Fin 4096) (j : Fin 1024) : EReal :=
  ∑ d : Fin 1024, key (ix3 b s d) * W (ix2 j d)

/-- The unscaled score of query `q` against key `s` in batch `b`. -/
def score (query key : Arr3) (W : Mat) (b : Fin 4) (q : Fin 4096) (s : Fin 4096) : EReal :=
  ∑ d : Fin 1024, query (ix3 b q d) * projected key W b s d

/-- The attention weights: the stable softmax of a query's scores over the 4096 keys. -/
def weights (query key : Arr3) (W : Mat) : Att :=
  fun i => weight (score query key W (i 0) (i 1)) (i 2)

/-- The attention result: each query's weights applied to the values of its batch. -/
def result (value query key : Arr3) (W : Mat) : Arr3 :=
  fun i => ∑ s : Fin 4096, weights query key W (ix3 (i 0) (i 1) s) * value (ix3 (i 0) s (i 2))

/-- The weights at an index given by its coordinates. -/
theorem weights_apply (query key : Arr3) (W : Mat) (b : Fin 4) (q s : Fin 4096) :
    weights query key W (ix3 b q s) = weight (score query key W b q) s := rfl

/-- The result at an index given by its coordinates. -/
theorem result_apply (value query key : Arr3) (W : Mat) (b : Fin 4) (q : Fin 4096) (v : Fin 1024) :
    result value query key W (ix3 b q v) = ∑ s : Fin 4096, weights query key W (ix3 b q s) * value (ix3 b s v) := rfl

end Cert.Luong

end
-- ==== Proof.LibMatmulNT.lean ====
/-
  A matrix product whose right operand is contracted on its last axis, read at an index, over the extended reals.

  For the dimension numbers of an M×K by N×K product (contract the left operand's axis 1 with the right operand's
  axis 1, no batch axes: the product of the left matrix with the transpose of the right one), the product accumulated
  into the zero matrix has, at row `p` and column `q`, the entry  Σ_{k < K} lhs(p, k) · rhs(q, k):  the left index
  keeps the row and takes the contraction coordinate as its column, the right index takes the output's column as
  its row and the contraction coordinate as its column. Generic in M, K, N and in the operands' formats.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : Nat}

/-- The left index keeps the output's row. -/
theorem nt_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton_self _)]
  rfl

/-- The left index's column is the contraction coordinate. -/
theorem nt_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right index's row is the output's column. -/
theorem nt_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton_self _)]
  rfl

/-- The right index's column is the contraction coordinate. -/
theorem nt_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- THE PRODUCT AT AN ENTRY: a matrix product contracting both operands' last axes, accumulated into the zero matrix,
    is at `(p, q)` the sum over the contracted axis of the operands' products. The dimension numbers are passed as any
    record equal to `DotDims.transposedRhs M K N` (a printed record with the same six lists is, by `rfl`). -/
theorem matmul_nt_zero_apply {φ₁ φ₂ : FTy} (D : DotDims ⟨2, ![M, K]⟩ ⟨2, ![N, K]⟩ ⟨2, ![M, N]⟩)
    (hD : D = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  subst hD
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact nt_lhs_row _ _
      | ⟨1, _⟩ => exact (nt_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact nt_rhs_row _ _
      | ⟨1, _⟩ => exact (nt_rhs_col _ _).trans hk)
  rw [el, er]

end Cert.LibMatmulNT

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibRowMax.lean ====
/-
  The largest entry of each row of a matrix, read at a row.

  A kernel takes the maximum over the last axis of an [a, c] matrix by a lane reduction from an accumulator word; the
  host takes it by a reduce whose body is the maximum, from an initial value held in a rank-0 array. Over the extended
  reals both are, at row p, the fold of `max` from the starting value over the c entries (p, q) of that row, in any
  order. Generic in a and c; the host form takes the witness that names the inserted coordinate as an argument.
-/
import Idealize.ShloMosaic.PureOps.Ideal.Laws
import Idealize.ShloMosaic.Lib.ValueIdx

noncomputable section

namespace Cert.LibRowMax

open Idealize.ShloMosaic Idealize.ShloMosaic.ValueIdx

/-- The index of row `p` with the column `q` put back is `(p, q)`. -/
theorem lift_last {a c : Nat} (h : (⟨2, ![a, c]⟩ : Shape).Reduces [1] ⟨1, ![a]⟩) (p : Fin a) (q : Fin c) :
    h.lift (ix1 p) q = ix2 p q :=
  funext fun ax => Fin.ext (by
    match ax with
    | ⟨0, _⟩ => rfl
    | ⟨1, _⟩ => rfl)

/-- A lane maximum over the last axis of [a, c], from the accumulator word `acc`, at row `p`. -/
theorem lane_max_last_apply {a c : Nat} (src : FVec Ideal ⟨2, ![a, c]⟩ .f32) (acc : BitVec 32)
    (h : (⟨2, ![a, c]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin c)).fold max (Ideal.ofBits .f32 acc) (fun q => src (ix2 p q)) := by
  refine (Ideal.multiReduction_maximumf_single src acc h hφ hacc (ix1 p)).trans ?_
  exact Finset.fold_congr fun q _ => congrArg src (lift_last h p q)

/-- The host's reduce with the maximum as its body over the last axis of [a, c], from the initial value `init`, at
    row `p`. -/
theorem host_max_last_apply {a c : Nat} {u : Shape} (x : FVec Ideal ⟨2, ![a, c]⟩ .f32) (init : FVec Ideal u .f32)
    (h' : (⟨2, ![a, c]⟩ : Shape).ReducesTo [1] ⟨1, ![a]⟩) (h : (⟨2, ![a, c]⟩ : Shape).Reduces [1] ⟨1, ![a]⟩)
    (hu : 0 < u.numel) (p : Fin a) :
    Host.reduce (FloatOps.maximumf (F := Ideal) (φ := .f32)) x init h' hu (ix1 p)
      = (Finset.univ : Finset (Fin c)).fold max (init (Shape.Idx.first hu)) (fun q => x (ix2 p q)) := by
  refine (Host.reduce_eq_fold_single (FloatOps.maximumf (F := Ideal) (φ := .f32)) x init h' h hu (ix1 p)).trans ?_
  exact Finset.fold_congr fun q _ => congrArg x (lift_last h p q)

end Cert.LibRowMax

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.Body.lean ====
/-
  What each kernel body computes from the blocks it loads, read at an index, on the extended reals.

  The projection body: its first output block is the key block times the transposed weight block, entry (r, j) the sum
  over d of key(r, d) · weight(j, d); its second output block is the value block unchanged. The attention body: from a
  query tile (256 rows) and a batch's projected keys (4096 rows) it forms the 256 × 4096 scores, takes each row's stable
  softmax, and applies the weights to the batch's values. A change of float format is the identity on the extended reals,
  and a product accumulated into the zero matrix is the plain sum of products.
-/
import proofs.«137832_j45165876084978_2_alg».proof.Proof.Gen.KernelIdeal.Skeleton
import proofs.«137832_j45165876084978_2_alg».proof.Proof.LibSoftmaxShift
import proofs.«137832_j45165876084978_2_alg».proof.Proof.LibMatmulNT
import proofs.«137832_j45165876084978_2_alg».proof.Proof.LibMatmulPlain
import proofs.«137832_j45165876084978_2_alg».proof.Proof.LibRowMax
import proofs.«137832_j45165876084978_2_alg».proof.Proof.LibRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Luong.Body

open Idealize.ShloMosaic Idealize.ShloMosaic.ValueIdx Cert.KernelIdeal Cert.KernelIdeal.Gen Cert.LibSoftmaxShift

/-- The projection body's first payload at (r, j): the key block's row r against the weight block's row j. -/
theorem projected_block (x : Vec Ideal S1024x1024 .f32) (w : Vec Ideal S1024x1024 .bf16) (r j : Fin 1024) :
    k0_pay1 (F := Ideal) x w (ix2 r j) = ∑ d : Fin 1024, x (ix2 r d) * w (ix2 j d) := by
  unfold k0_pay1
  refine (Cert.LibMatmulNT.matmul_nt_zero_apply dot_S1024x1024_S1024x1024_S1024x1024_1_1_0_0_n_n rfl none _ _ r j).trans ?_
  refine Finset.sum_congr rfl fun d _ => ?_
  rw [truncf_apply, shapeCast_self, shapeCast_self]

/-- The projection body's second payload is the value block, entry by entry. -/
theorem passed_block (x : Vec Ideal S1024x1024 .f32) (j : S1024x1024.Idx) :
    k0_pay2 (F := Ideal) x j = x j := by
  unfold k0_pay2
  rw [truncf_apply, shapeCast_self]

/-- The attention body's scores at (i, s): the tile's row i against the projected key s. -/
theorem score_entry (x : Vec Ideal S1x256x1024 .f32) (kw : Vec Ideal S1x4096x1024 .bf16)
    (hx : S1x256x1024.ShapeCasts S256x1024) (hk : S1x4096x1024.ShapeCasts S4096x1024)
    (hb : FTy.bits .bf16 < FTy.bits .f32) (i : Fin 256) (s : Fin 4096) :
    matmul dot_S256x1024_S4096x1024_S256x4096_1_1_0_0_n_n none
        (truncf .bf16 (shapeCast S256x1024 x hx : FVec Ideal S256x1024 .f32) hb : FVec Ideal S256x1024 .bf16)
        (shapeCast S4096x1024 kw hk : FVec Ideal S4096x1024 .bf16)
        (constant (F := Ideal) S256x4096 .f32 0x00000000#32) (ix2 i s)
      = ∑ d : Fin 1024, x (ix3 (0 : Fin 1) i d) * kw (ix3 (0 : Fin 1) s d) := by
  refine (Cert.LibMatmulNT.matmul_nt_zero_apply dot_S256x1024_S4096x1024_S256x4096_1_1_0_0_n_n rfl none _ _ i s).trans ?_
  refine Finset.sum_congr rfl fun d _ => ?_
  rw [truncf_apply,
    Cert.LibRows.flatten_rows_apply x hx (0 : Fin 1) i d i (by simp),
    Cert.LibRows.flatten_rows_apply kw hk (0 : Fin 1) s d s (by simp)]

/-- The stable softmax of each row of a 256 × 4096 matrix, as the kernel spells it: subtract the row's maximum
    (a lane maximum from −∞, turned into a column and repeated along the row), exponentiate, divide by the row's sum
    (a lane sum from zero, turned into a column and repeated along the row). At (i, s) it is the weight of entry s
    among row i. -/
theorem softmax_rows (sc : FVec Ideal S256x4096 .f32) (hR : S256x4096.Reduces [1] S256)
    (hC : S256.ShapeCasts S256x1) (hB : S256x1.Broadcasts S256x4096) (i : Fin 256) (s : Fin 4096) :
    divf
        (exp (subf sc (broadcastTo S256x4096
          (shapeCast S256x1 (multiReduction (F := Ideal) .maximumf [1] S256 sc 0xFF800000#32 hR (.inl rfl) rfl) hC) hB)))
        (broadcastTo S256x4096
          (shapeCast S256x1
            (multiReduction (F := Ideal) .add [1] S256
              (exp (subf sc (broadcastTo S256x4096
                (shapeCast S256x1 (multiReduction (F := Ideal) .maximumf [1] S256 sc 0xFF800000#32 hR (.inl rfl) rfl) hC) hB)))
              0x00000000#32 hR (.inl rfl) rfl) hC) hB)
        (ix2 i s)
      = weight (fun s' : Fin 4096 => sc (ix2 i s')) s := by
  -- the row maximum, repeated along the row
  have hmax : ∀ q : Fin 4096,
      broadcastTo S256x4096
        (shapeCast S256x1 (multiReduction (F := Ideal) .maximumf [1] S256 sc 0xFF800000#32 hR (.inl rfl) rfl) hC) hB (ix2 i q)
        = top (fun s' : Fin 4096 => sc (ix2 i s')) := fun q =>
    (Cert.LibRows.bcast_col_apply _ hB i q).trans
      ((Cert.LibRows.col_cast_apply _ hC i (0 : Fin 1)).trans
        ((Cert.LibRowMax.lane_max_last_apply sc 0xFF800000#32 hR (.inl rfl) rfl i).trans
          (by rw [ofBits_neg_inf]; rfl)))
  -- the shifted exponential at an entry of the row
  have hexp : ∀ q : Fin 4096,
      exp (subf sc (broadcastTo S256x4096
          (shapeCast S256x1 (multiReduction (F := Ideal) .maximumf [1] S256 sc 0xFF800000#32 hR (.inl rfl) rfl) hC) hB)) (ix2 i q)
        = Ideal.exp (sc (ix2 i q) - top (fun s' : Fin 4096 => sc (ix2 i s'))) := fun q =>
    congrArg (fun m => Ideal.exp (sc (ix2 i q) - m)) (hmax q)
  -- the row sum, repeated along the row
  have hsum :
      broadcastTo S256x4096
          (shapeCast S256x1
            (multiReduction (F := Ideal) .add [1] S256
              (exp (subf sc (broadcastTo S256x4096
                (shapeCast S256x1 (multiReduction (F := Ideal) .maximumf [1] S256 sc 0xFF800000#32 hR (.inl rfl) rfl) hC) hB)))
              0x00000000#32 hR (.inl rfl) rfl) hC) hB (ix2 i s)
        = ∑ q : Fin 4096, Ideal.exp (sc (ix2 i q) - top (fun s' : Fin 4096 => sc (ix2 i s'))) :=
    (Cert.LibRows.bcast_col_apply _ hB i s).trans
      ((Cert.LibRows.col_cast_apply _ hC i (0 : Fin 1)).trans
        ((Cert.LibRows.lane_sum_last_apply _ hR (.inl rfl) rfl i).trans
          (Finset.sum_congr rfl fun q _ => hexp q)))
  rw [divf_apply, hexp s, hsum]
  rfl

/-- The attention body's quotient at (i, s): the stable softmax weight of key s among the 4096 scores of the tile's
    row i. -/
theorem quotient_block (x : Vec Ideal S1x256x1024 .f32) (kw : Vec Ideal S1x4096x1024 .bf16) (i : Fin 256) (s : Fin 4096) :
    k1_pay1 (F := Ideal) x kw (ix2 i s)
      = weight (fun s' : Fin 4096 => ∑ d : Fin 1024, x (ix3 (0 : Fin 1) i d) * kw (ix3 (0 : Fin 1) s' d)) s := by
  unfold k1_pay1
  refine (softmax_rows _ _ _ _ i s).trans ?_
  exact congrArg (fun l : Fin 4096 → EReal => weight l s) (funext fun s' => score_entry x kw _ _ _ i s')

/-- The attention body's weights payload at (0, i, s): the stable softmax weight of key s among the 4096 scores of the
    tile's row i. -/
theorem weights_block (x : Vec Ideal S1x256x1024 .f32) (kw : Vec Ideal S1x4096x1024 .bf16) (i : Fin 256) (s : Fin 4096) :
    k1_pay2 (F := Ideal) x kw (ix3 (0 : Fin 1) i s)
      = weight (fun s' : Fin 4096 => ∑ d : Fin 1024, x (ix3 (0 : Fin 1) i d) * kw (ix3 (0 : Fin 1) s' d)) s := by
  unfold k1_pay2
  refine (Cert.LibRows.unflatten_rows_apply _ _ (0 : Fin 1) i s i (by simp)).trans ?_
  exact quotient_block x kw i s

/-- The attention body's result payload at (0, i, e): the row's weights applied to column e of the batch's values. -/
theorem result_block (x : Vec Ideal S1x256x1024 .f32) (kw v : Vec Ideal S1x4096x1024 .bf16) (i : Fin 256) (e : Fin 1024) :
    k1_pay3 (F := Ideal) x kw v (ix3 (0 : Fin 1) i e)
      = ∑ s : Fin 4096, k1_pay2 (F := Ideal) x kw (ix3 (0 : Fin 1) i s) * v (ix3 (0 : Fin 1) s e) := by
  unfold k1_pay3
  refine (Cert.LibRows.unflatten_rows_apply _ _ (0 : Fin 1) i e i (by simp)).trans ?_
  refine (Cert.LibMatmulPlain.matmul_plain_zero_apply dot_S256x4096_S4096x1024_S256x1024_1_0_0_1_n_n rfl none _ _ i e).trans ?_
  refine Finset.sum_congr rfl fun s _ => ?_
  rw [truncf_apply, Cert.LibRows.flatten_rows_apply v _ (0 : Fin 1) s e s (by simp)]
  refine congrArg (fun a => a * v (ix3 (0 : Fin 1) s e)) ?_
  unfold k1_pay2
  exact (Cert.LibRows.unflatten_rows_apply _ _ (0 : Fin 1) i s i (by simp)).symm

end Cert.Luong.Body

end
-- ==== Proof.Projection.lean ====
/-
  What the projection region leaves in its two result arrays, for any contents `V` of the buffers at its entry.

  The region has 16 points; point t takes rows 1024·t … 1024·t + 1023 of the flattened key and value arrays, and the whole
  weight, and writes back the same rows of its two results. So the first result array ends, at (r, j), at the sum over d
  of key(r, d) · weight(j, d), and the second ends equal to the flattened value array; every row belongs to the point
  r / 1024, so the blocks cover both arrays.
-/
import proofs.«137832_j45165876084978_2_alg».proof.Proof.Gen.KernelIdeal.Frame
import proofs.«137832_j45165876084978_2_alg».proof.Proof.Body
import Idealize.ShloMosaic.Lib.Pipeline.Value
import Idealize.ShloMosaic.Lib.ValueIdx

set_option maxRecDepth 16384

noncomputable section

open scoped BigOperators

namespace Cert.Luong.Projection

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl

/-- The projected rows: row r of a flattened key array against row j of a weight array. -/
def projectedRows (k : S16384x1024.Idx → EReal) (w : S1024x1024.Idx → EReal) : S16384x1024.Idx → EReal :=
  fun i => ∑ d : Fin 1024, k (ix2 (i 0) d) * w (ix2 (i 1) d)

/-- One point of the projection: if the key block's row is row `i 0` of the array and the weight block's row is row
    `i 1` of the weight, the body's first payload at `y` is the projected rows at `i`. -/
theorem projected_point (x : Vec Ideal S1024x1024 .f32) (w : Vec Ideal S1024x1024 .bf16)
    (k : S16384x1024.Idx → EReal) (wa : S1024x1024.Idx → EReal) (y : S1024x1024.Idx) (i : S16384x1024.Idx)
    (hx : ∀ d : Fin 1024, x (ix2 (y 0) d) = k (ix2 (i 0) d)) (hw : ∀ d : Fin 1024, w (ix2 (y 1) d) = wa (ix2 (i 1) d)) :
    k0_pay1 (F := Ideal) x w y = projectedRows k wa i := by
  obtain ⟨r, q, rfl⟩ : ∃ (r q : Fin 1024), y = ix2 r q := ⟨y 0, y 1, eq_ix2 y⟩
  refine (Body.projected_block x w r q).trans ?_
  unfold projectedRows
  exact Finset.sum_congr rfl fun d _ => by rw [hx d, hw d]

/-- The printed index maps over the 16 points: the key, value and result windows sit at block (t, 0), the weight's at
    (0, 0). -/
theorem index_facts : ∀ t : Fin cfg0.N,
    win0_0.index t (0 : Fin 2) = win0_3.index t (0 : Fin 2) ∧ win0_0.index t (1 : Fin 2) = 0
    ∧ win0_1.index t (0 : Fin 2) = win0_4.index t (0 : Fin 2) ∧ win0_1.index t (1 : Fin 2) = win0_4.index t (1 : Fin 2)
    ∧ win0_2.index t (0 : Fin 2) = 0 ∧ win0_2.index t (1 : Fin 2) = 0
    ∧ win0_3.index t (1 : Fin 2) = 0 ∧ win0_4.index t (1 : Fin 2) = 0 :=
  (by decide +kernel : ∀ t : Fin grid0.N, _)

/-- What point `t` writes back to the first result is block `t` of the projected rows. -/
theorem flushed_projected (c : Dev nD) (t : Fin cfg0.N) :
    (dat0 V c).flushed 3 t = ((cfg0.win 3).blk t).view.read (Elt Ideal) (projectedRows (V c main_v0) (V c main_v2)) := by
  show (cfg0.win 3).cut (grid0.coords t) ((dat0 V c).after 3 t) = _
  rw [after0_3]
  unfold out0_3
  rw [View.canon_unit_zero zeros2]
  simp only [View.ld_unit_zero (S := S1024x1024) zeros2]
  obtain ⟨e0, e1, -, -, e4, e5, e6, -⟩ := index_facts t
  funext j
  refine projected_point (iblk0 V c 0 t) (iblk0 V c 2 t) (V c main_v0) (V c main_v2) j (((cfg0.win 3).blk t).view.emb j)
    (fun d => ?_) (fun d => ?_)
  · show V c main_v0 (((cfg0.win 0).blk t).view.emb (ix2 (j 0) d)) = V c main_v0 (ix2 ((((cfg0.win 3).blk t).view.emb j) 0) d)
    refine congrArg (V c main_v0) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * d.val = d.val; omega
  · show V c main_v2 (((cfg0.win 2).blk t).view.emb (ix2 (j 1) d)) = V c main_v2 (ix2 ((((cfg0.win 3).blk t).view.emb j) 1) d)
    refine congrArg (V c main_v2) (funext fun a => Fin.ext ?_)
    match a with
    | ⟨0, _⟩ => show win0_2.index t (0 : Fin 2) * 1024 + 1 * (j 1).val = win0_3.index t (1 : Fin 2) * 1024 + 1 * (j 1).val; omega
    | ⟨1, _⟩ => show win0_2.index t (1 : Fin 2) * 1024 + 1 * d.val = d.val; omega

/-- What point `t` writes back to the second result is block `t` of the flattened value array. -/
theorem flushed_passed (c : Dev nD) (t : Fin cfg0.N) :
    (dat0 V c).flushed 4 t = ((cfg0.win 4).blk t).view.read (Elt Ideal) (fun i => V c main_v1 i) := by
  show (cfg0.win 4).cut (grid0.coords t) ((dat0 V c).after 4 t) = _
  rw [after0_4]
  unfold out0_4
  rw [View.canon_unit_zero zeros2]
  simp only [View.ld_unit_zero (S := S1024x1024) zeros2]
  obtain ⟨-, -, e2, e3, -, -, -, -⟩ := index_facts t
  funext j
  refine (Body.passed_block (iblk0 V c 1 t) j).trans ?_
  show V c main_v1 (((cfg0.win 1).blk t).view.emb j) = V c main_v1 (((cfg0.win 4).blk t).view.emb j)
  refine congrArg (V c main_v1) (funext fun a => Fin.ext ?_)
  match a with
  | ⟨0, _⟩ => show win0_1.index t (0 : Fin 2) * 1024 + 1 * (j 0).val = win0_4.index t (0 : Fin 2) * 1024 + 1 * (j 0).val; omega
  | ⟨1, _⟩ => show win0_1.index t (1 : Fin 2) * 1024 + 1 * (j 1).val = win0_4.index t (1 : Fin 2) * 1024 + 1 * (j 1).val; omega

/-- An index lies in a point's block of the first result iff each coordinate lies in the block's range. -/
theorem mem_block3 (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3_0).slice (win0_3.rect t)).set ↔ _
  rw [View.set_slice_whole, Rect.mem_set_unit]
  exact Iff.rfl

/-- The same for the second result. -/
theorem mem_block4 (t : Fin cfg0.N) (i : S16384x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v3_1).slice (win0_4.rect t)).set ↔ _
  rw [View.set_slice_whole, Rect.mem_set_unit]
  exact Iff.rfl

/-- Each of the 16 row blocks is some point's, for both results. -/
theorem blocks_onto : ∀ q0 : Fin 16, ∃ t : Fin cfg0.N, win0_3.index t = ![q0.val, 0] ∧ win0_4.index t = ![q0.val, 0] :=
  (by decide +kernel : ∀ q0 : Fin 16, ∃ t : Fin grid0.N, win0_3.index t = ![q0.val, 0] ∧ win0_4.index t = ![q0.val, 0])

/-- Row r of the first result belongs to the point r / 1024. -/
theorem cover_projected (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht, -⟩ := blocks_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_block3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- Row r of the second result belongs to the point r / 1024. -/
theorem cover_passed (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, -, ht⟩ := blocks_onto ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_block4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE FIRST RESULT ARRAY after the region: the projected rows of the flattened key and the weight as the region found
    them. -/
theorem projected_array (c : Dev nD) :
    (dat0 V c).arrAt 3 cfg0.N = projectedRows (V c main_v0) (V c main_v2) :=
  (dat0 V c).arrAt_eq_of_cover 3 _ (fun t _ => flushed_projected V c t) cover_projected

/-- THE SECOND RESULT ARRAY after the region: the flattened value array as the region found it. -/
theorem passed_array (c : Dev nD) :
    (dat0 V c).arrAt 4 cfg0.N = fun i => V c main_v1 i :=
  (dat0 V c).arrAt_eq_of_cover 4 _ (fun t _ => flushed_passed V c t) cover_passed

end Cert.Luong.Projection

end
-- ==== Proof.Tiles.lean ====
/-
  What the attention region leaves in its two result arrays, for any contents `V` of the buffers at its entry.

  The region has 4 × 16 points; point (b, g) takes rows 256·g … 256·g + 255 of batch b of the query array and the whole
  of batch b of the projected keys and of the values, and writes back the same rows of batch b of its two results. So the
  weights array ends, at (b, q, s), at the stable softmax weight of key s among the scores of query q against the 4096
  projected keys of its batch, and the result array, at (b, q, v), at those weights applied to column v of the batch's
  values; row q of batch b belongs to the point (b, q / 256), so the blocks cover both arrays.
-/
import proofs.«137832_j45165876084978_2_alg».proof.Proof.Gen.KernelIdeal.Frame
import proofs.«137832_j45165876084978_2_alg».proof.Proof.Body
import Idealize.ShloMosaic.Lib.Pipeline.Value
import Idealize.ShloMosaic.Lib.ValueIdx

set_option maxRecDepth 16384

noncomputable section

open scoped BigOperators

namespace Cert.Luong.Tiles

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibSoftmaxShift

variable (V : (c : Dev nD) → (b : Ref sig .tc) → Buf (Elt Ideal) ((c : Thread nD τ).loc b))

theorem zeros3 : (![0, 0, 0] : Fin 3 → Nat) = fun _ => 0 := funext fun a => by fin_cases a <;> rfl

/-- The weights of every query of a query array against the keys of its batch in a projected-key array. -/
def tileWeights (qa ka : S4x4096x1024.Idx → EReal) : S4x4096x4096.Idx → EReal :=
  fun i => weight (fun s' : Fin 4096 => ∑ d : Fin 1024, qa (ix3 (i 0) (i 1) d) * ka (ix3 (i 0) s' d)) (i 2)

/-- Those weights applied to the values of the batch. -/
def tileResult (qa ka va : S4x4096x1024.Idx → EReal) : S4x4096x1024.Idx → EReal :=
  fun i => ∑ s : Fin 4096, tileWeights qa ka (ix3 (i 0) (i 1) s) * va (ix3 (i 0) s (i 2))

/-- Every index of a block with a leading unit axis is (0, its row, its column). -/
theorem eq_ix3_unit {a b : Nat} (y : (⟨3, ![1, a, b]⟩ : Shape).Idx) : y = ix3 (0 : Fin 1) (y 1) (y 2) := by
  have hlt : (y 0).val < 1 := (y 0).isLt
  have h0 : y 0 = (0 : Fin 1) := Fin.ext (by show (y 0).val = 0; omega)
  exact (eq_ix3 y).trans (congrArg (fun z : Fin 1 => ix3 z (y 1) (y 2)) h0)

/-- One point of the attention, weights: if the query tile's row is row (`i 0`, `i 1`) of the query array, the key
    slab is batch `i 0` of the projected keys, and the column is `i 2`, the weights payload at `y` is the weights at
    `i`. -/
theorem weights_point (x : Vec Ideal S1x256x1024 .f32) (kw : Vec Ideal S1x4096x1024 .bf16)
    (qa ka : S4x4096x1024.Idx → EReal) (y : S1x256x4096.Idx) (i : S4x4096x4096.Idx)
    (hx : ∀ d : Fin 1024, x (ix3 (0 : Fin 1) (y 1) d) = qa (ix3 (i 0) (i 1) d))
    (hk : ∀ (s' : Fin 4096) (d : Fin 1024), kw (ix3 (0 : Fin 1) s' d) = ka (ix3 (i 0) s' d))
    (hs : (y 2).val = (i 2).val) :
    k1_pay2 (F := Ideal) x kw y = tileWeights qa ka i := by
  rw [eq_ix3_unit y]
  refine (Body.weights_block x kw (y 1) (y 2)).trans ?_
  unfold tileWeights
  have hl : (fun s' : Fin 4096 => ∑ d : Fin 1024, x (ix3 (0 : Fin 1) (y 1) d) * kw (ix3 (0 : Fin 1) s' d))
      = fun s' : Fin 4096 => ∑ d : Fin 1024, qa (ix3 (i 0) (i 1) d) * ka (ix3 (i 0) s' d) :=
    funext fun s' => Finset.sum_congr rfl fun d _ => congrArg₂ (· * ·) (hx d) (hk s' d)
  rw [hl]
  exact congrArg _ (Fin.ext hs)

/-- One point of the attention, result: with the value slab batch `i 0` of the values and the column `i 2`, the result
    payload at `y` is the result at `i`. -/
theorem result_point (x : Vec Ideal S1x256x1024 .f32) (kw v : Vec Ideal S1x4096x1024 .bf16)
    (qa ka va : S4x4096x1024.Idx → EReal) (y : S1x256x1024.Idx) (i : S4x4096x1024.Idx)
    (hx : ∀ d : Fin 1024, x (ix3 (0 : Fin 1) (y 1) d) = qa (ix3 (i 0) (i 1) d))
    (hk : ∀ (s' : Fin 4096) (d : Fin 1024), kw (ix3 (0 : Fin 1) s' d) = ka (ix3 (i 0) s' d))
    (hv : ∀ s : Fin 4096, v (ix3 (0 : Fin 1) s (y 2)) = va (ix3 (i 0) s (i 2))) :
    k1_pay3 (F := Ideal) x kw v y = tileResult qa ka va i := by
  rw [eq_ix3_unit y]
  refine (Body.result_block x kw v (y 1) (y 2)).trans ?_
  unfold tileResult
  refine Finset.sum_congr rfl fun s _ => congrArg₂ (· * ·) ?_ (hv s)
  exact weights_point x kw qa ka (ix3 (0 : Fin 1) (y 1) s) (ix3 (i 0) (i 1) s) hx hk rfl

/-- The printed index maps over the 64 points: the query and the two result windows sit at block (b, g, 0), the two
    slabs at (b, 0, 0). -/
theorem index_facts : ∀ t : Fin cfg1.N,
    win1_0.index t (0 : Fin 3) = win1_4.index t (0 : Fin 3) ∧ win1_0.index t (1 : Fin 3) = win1_4.index t (1 : Fin 3)
    ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = win1_4.index t (1 : Fin 3)
    ∧ win1_3.index t (2 : Fin 3) = 0 ∧ win1_4.index t (2 : Fin 3) = 0 :=
  (by decide +kernel : ∀ t : Fin grid1.N, _)

/-- What point `t` writes back to the weights array is block `t` of the weights. -/
theorem flushed_weights (c : Dev nD) (t : Fin cfg1.N) :
    (dat1 V c).flushed 4 t = ((cfg1.win 4).blk t).view.read (Elt Ideal) (tileWeights (V c main_arg2) (V c main_v4)) := by
  show (cfg1.win 4).cut (grid1.coords t) ((dat1 V c).after 4 t) = _
  rw [after1_4]
  unfold out1_4
  rw [View.canon_unit_zero zeros3]
  simp only [View.ld_unit_zero (S := S1x256x1024) zeros3, View.ld_unit_zero (S := S1x4096x1024) zeros3]
  obtain ⟨e0, e1, e2, e3, e4, e5, -, -, -, -, -, -, e12⟩ := index_facts t
  funext j
  have hj0 : (j 0).val < 1 := (j 0).isLt
  refine weights_point (iblk1 V c 0 t) (iblk1 V c 1 t) (V c main_arg2) (V c main_v4) j (((cfg1.win 4).blk t).view.emb j)
    (fun d => ?_) (fun s' d => ?_) ?_
  · show V c main_arg2 (((cfg1.win 0).blk t).view.emb (ix3 (0 : Fin 1) (j 1) d))
      = V c main_arg2 (ix3 ((((cfg1.win 4).blk t).view.emb j) 0) ((((cfg1.win 4).blk t).view.emb j) 1) d)
    refine congrArg (V c main_arg2) (funext fun a => Fin.ext ?_)
    match a with
    | ⟨0, _⟩ => show win1_0.index t (0 : Fin 3) * 1 + 1 * 0 = win1_4.index t (0 : Fin 3) * 1 + 1 * (j 0).val; omega
    | ⟨1, _⟩ => show win1_0.index t (1 : Fin 3) * 256 + 1 * (j 1).val = win1_4.index t (1 : Fin 3) * 256 + 1 * (j 1).val; omega
    | ⟨2, _⟩ => show win1_0.index t (2 : Fin 3) * 1024 + 1 * d.val = d.val; omega
  · show V c main_v4 (((cfg1.win 1).blk t).view.emb (ix3 (0 : Fin 1) s' d))
      = V c main_v4 (ix3 ((((cfg1.win 4).blk t).view.emb j) 0) s' d)
    refine congrArg (V c main_v4) (funext fun a => Fin.ext ?_)
    match a with
    | ⟨0, _⟩ => show win1_1.index t (0 : Fin 3) * 1 + 1 * 0 = win1_4.index t (0 : Fin 3) * 1 + 1 * (j 0).val; omega
    | ⟨1, _⟩ => show win1_1.index t (1 : Fin 3) * 4096 + 1 * s'.val = s'.val; omega
    | ⟨2, _⟩ => show win1_1.index t (2 : Fin 3) * 1024 + 1 * d.val = d.val; omega
  · show (j 2).val = win1_4.index t (2 : Fin 3) * 4096 + 1 * (j 2).val
    omega

/-- What point `t` writes back to the result array is block `t` of the result. -/
theorem flushed_result (c : Dev nD) (t : Fin cfg1.N) :
    (dat1 V c).flushed 3 t
      = ((cfg1.win 3).blk t).view.read (Elt Ideal) (tileResult (V c main_arg2) (V c main_v4) (fun i => V c main_v5 i)) := by
  show (cfg1.win 3).cut (grid1.coords t) ((dat1 V c).after 3 t) = _
  rw [after1_3]
  unfold out1_3
  rw [View.canon_unit_zero zeros3]
  simp only [View.ld_unit_zero (S := S1x256x1024) zeros3, View.ld_unit_zero (S := S1x4096x1024) zeros3]
  obtain ⟨e0, e1, e2, e3, e4, e5, e6, e7, e8, e9, e10, e11, -⟩ := index_facts t
  funext j
  have hj0 : (j 0).val < 1 := (j 0).isLt
  refine result_point (iblk1 V c 0 t) (iblk1 V c 1 t) (iblk1 V c 2 t) (V c main_arg2) (V c main_v4) (fun i => V c main_v5 i) j
    (((cfg1.win 3).blk t).view.emb j) (fun d => ?_) (fun s' d => ?_) (fun s => ?_)
  · show V c main_arg2 (((cfg1.win 0).blk t).view.emb (ix3 (0 : Fin 1) (j 1) d))
      = V c main_arg2 (ix3 ((((cfg1.win 3).blk t).view.emb j) 0) ((((cfg1.win 3).blk t).view.emb j) 1) d)
    refine congrArg (V c main_arg2) (funext fun a => Fin.ext ?_)
    match a with
    | ⟨0, _⟩ => show win1_0.index t (0 : Fin 3) * 1 + 1 * 0 = win1_3.index t (0 : Fin 3) * 1 + 1 * (j 0).val; omega
    | ⟨1, _⟩ => show win1_0.index t (1 : Fin 3) * 256 + 1 * (j 1).val = win1_3.index t (1 : Fin 3) * 256 + 1 * (j 1).val; omega
    | ⟨2, _⟩ => show win1_0.index t (2 : Fin 3) * 1024 + 1 * d.val = d.val; omega
  · show V c main_v4 (((cfg1.win 1).blk t).view.emb (ix3 (0 : Fin 1) s' d))
      = V c main_v4 (ix3 ((((cfg1.win 3).blk t).view.emb j) 0) s' d)
    refine congrArg (V c main_v4) (funext fun a => Fin.ext ?_)
    match a with
    | ⟨0, _⟩ => show win1_1.index t (0 : Fin 3) * 1 + 1 * 0 = win1_3.index t (0 : Fin 3) * 1 + 1 * (j 0).val; omega
    | ⟨1, _⟩ => show win1_1.index t (1 : Fin 3) * 4096 + 1 * s'.val = s'.val; omega
    | ⟨2, _⟩ => show win1_1.index t (2 : Fin 3) * 1024 + 1 * d.val = d.val; omega
  · show V c main_v5 (((cfg1.win 2).blk t).view.emb (ix3 (0 : Fin 1) s (j 2)))
      = V c main_v5 (ix3 ((((cfg1.win 3).blk t).view.emb j) 0) s ((((cfg1.win 3).blk t).view.emb j) 2))
    refine congrArg (V c main_v5) (funext fun a => Fin.ext ?_)
    match a with
    | ⟨0, _⟩ => show win1_2.index t (0 : Fin 3) * 1 + 1 * 0 = win1_3.index t (0 : Fin 3) * 1 + 1 * (j 0).val; omega
    | ⟨1, _⟩ => show win1_2.index t (1 : Fin 3) * 4096 + 1 * s.val = s.val; omega
    | ⟨2, _⟩ => show win1_2.index t (2 : Fin 3) * 1024 + 1 * (j 2).val = win1_3.index t (2 : Fin 3) * 1024 + 1 * (j 2).val; omega

/-- An index lies in a point's block of the weights array iff each coordinate lies in the block's range. -/
theorem mem_block4 (t : Fin cfg1.N) (i : S4x4096x4096.Idx) :
    i ∈ ((cfg1.win 4).blk t).view.set ↔ ∀ a : Fin 3, win1_4.index t a * S1x256x4096.size a ≤ (i a).val
      ∧ (i a).val < win1_4.index t a * S1x256x4096.size a + S1x256x4096.size a := by
  show i ∈ ((View.whole main_v6_1).slice (win1_4.rect t)).set ↔ _
  rw [View.set_slice_whole, Rect.mem_set_unit]
  exact Iff.rfl

/-- The same for the result array. -/
theorem mem_block3 (t : Fin cfg1.N) (i : S4x4096x1024.Idx) :
    i ∈ ((cfg1.win 3).blk t).view.set ↔ ∀ a : Fin 3, win1_3.index t a * S1x256x1024.size a ≤ (i a).val
      ∧ (i a).val < win1_3.index t a * S1x256x1024.size a + S1x256x1024.size a := by
  show i ∈ ((View.whole main_v6_0).slice (win1_3.rect t)).set ↔ _
  rw [View.set_slice_whole, Rect.mem_set_unit]
  exact Iff.rfl

/-- Each of the 4 × 16 row blocks is some point's, for both results. -/
theorem blocks_onto : ∀ (q0 : Fin 4) (q1 : Fin 16), ∃ t : Fin cfg1.N,
    win1_3.index t = ![q0.val, q1.val, 0] ∧ win1_4.index t = ![q0.val, q1.val, 0] :=
  (by decide +kernel : ∀ (q0 : Fin 4) (q1 : Fin 16), ∃ t : Fin grid1.N,
    win1_3.index t = ![q0.val, q1.val, 0] ∧ win1_4.index t = ![q0.val, q1.val, 0])

/-- Row q of batch b of the weights array belongs to the point (b, q / 256). -/
theorem cover_weights (i : S4x4096x4096.Idx) :
    ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 4096 := (i 2).isLt
  obtain ⟨t, -, ht⟩ := blocks_onto ⟨(i 0).val, hi0⟩ ⟨(i 1).val / 256, by omega⟩
  have q0 : win1_4.index t (0 : Fin 3) = (i 0).val := congrFun ht 0
  have q1 : win1_4.index t (1 : Fin 3) = (i 1).val / 256 := congrFun ht 1
  have q2 : win1_4.index t (2 : Fin 3) = 0 := congrFun ht 2
  refine ⟨t, flush1_4 t, ?_⟩
  rw [mem_block4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 4096 ≤ (i 2).val ∧ (i 2).val < win1_4.index t (2 : Fin 3) * 4096 + 4096; omega

/-- Row q of batch b of the result array belongs to the point (b, q / 256). -/
theorem cover_result (i : S4x4096x1024.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 1024 := (i 2).isLt
  obtain ⟨t, ht, -⟩ := blocks_onto ⟨(i 0).val, hi0⟩ ⟨(i 1).val / 256, by omega⟩
  have q0 : win1_3.index t (0 : Fin 3) = (i 0).val := congrFun ht 0
  have q1 : win1_3.index t (1 : Fin 3) = (i 1).val / 256 := congrFun ht 1
  have q2 : win1_3.index t (2 : Fin 3) = 0 := congrFun ht 2
  refine ⟨t, flush1_3 t, ?_⟩
  rw [mem_block3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 1024 ≤ (i 2).val ∧ (i 2).val < win1_3.index t (2 : Fin 3) * 1024 + 1024; omega

/-- THE WEIGHTS ARRAY after the region: the weights of the query array against the projected keys as the region found
    them. -/
theorem weights_array (c : Dev nD) :
    (dat1 V c).arrAt 4 cfg1.N = tileWeights (V c main_arg2) (V c main_v4) :=
  (dat1 V c).arrAt_eq_of_cover 4 _ (fun t _ => flushed_weights V c t) cover_weights

/-- THE RESULT ARRAY after the region: those weights applied to the values as the region found them. -/
theorem result_array (c : Dev nD) :
    (dat1 V c).arrAt 3 cfg1.N = tileResult (V c main_arg2) (V c main_v4) (fun i => V c main_v5 i) :=
  (dat1 V c).arrAt_eq_of_cover 3 _ (fun t _ => flushed_result V c t) cover_result

end Cert.Luong.Tiles

end
-- ==== Proof.Boundaries.lean ====
/-
  The buffer contents the two regions find at their entries.

  Before the projection region the host flattens the key and the value arrays to 16384 rows and changes the weight's
  float format. Between the regions it folds the projection's two result arrays back into four batches. The attention
  region reads the query argument itself, which nothing before it writes.
-/
import proofs.«137832_j45165876084978_2_alg».proof.Proof.Gen.KernelIdeal.Frame
import Idealize.ShloMosaic.Lib.StableHlo.Run
import Idealize.ShloMosaic.PureOps.Ideal
import Idealize.ShloMosaic.Lib.ValueIdx

set_option maxRecDepth 16384

noncomputable section

namespace Cert.Luong.Boundaries

open Idealize.ShloMosaic Idealize.ShloMosaic.TcCoe Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-- The projection region finds the key argument flattened to 16384 rows. -/
theorem entry0_key (c : Dev nD) :
    V1 m ρ c main_v0 = shapeCast S16384x1024 (m ((c : Thread nD τ).loc main_arg1)) shapeCasts_S4x4096x1024_S16384x1024 := by
  show StableHlo.after hostOps0 (W0 m ρ c) (Proc.devRef .tc main_v0) = _
  after_results
  rfl

/-- The projection region finds the value argument flattened to 16384 rows. -/
theorem entry0_value (c : Dev nD) :
    V1 m ρ c main_v1 = shapeCast S16384x1024 (m ((c : Thread nD τ).loc main_arg0)) shapeCasts_S4x4096x1024_S16384x1024 := by
  show StableHlo.after hostOps0 (W0 m ρ c) (Proc.devRef .tc main_v1) = _
  after_results
  rfl

/-- The projection region finds the weight argument in the narrower float format, which on the extended reals is the
    weight itself, entry by entry. -/
theorem entry0_weight (c : Dev nD) (i : S1024x1024.Idx) :
    V1 m ρ c main_v2 i = m ((c : Thread nD τ).loc main_arg3) i := by
  have h : V1 m ρ c main_v2
      = (truncf .bf16 (m ((c : Thread nD τ).loc main_arg3) : FVec Ideal S1024x1024 .f32) bitsLt_bf16_f32 : FVec Ideal S1024x1024 .bf16) := by
    show StableHlo.after hostOps0 (W0 m ρ c) (Proc.devRef .tc main_v2) = _
    after_results
  rw [h, ValueIdx.truncf_apply]

/-- The attention region finds the projection's first result folded back into four batches. -/
theorem entry1_keys (c : Dev nD) :
    V3 m ρ c main_v4 = shapeCast S4x4096x1024 ((dat0 (V1 m ρ) c).arrAt 3 cfg0.N) shapeCasts_S16384x1024_S4x4096x1024 := by
  show StableHlo.after hostOps1 (W2 m ρ c) (Proc.devRef .tc main_v4) = _
  after_results
  rw [show W2 m ρ c (Proc.devRef .tc main_v3_0) = (dat0 (V1 m ρ) c).arrAt 3 cfg0.N from W2_arr m ρ c 3]
  rfl

/-- The attention region finds the projection's second result folded back into four batches. -/
theorem entry1_values (c : Dev nD) :
    V3 m ρ c main_v5 = shapeCast S4x4096x1024 ((dat0 (V1 m ρ) c).arrAt 4 cfg0.N) shapeCasts_S16384x1024_S4x4096x1024 := by
  show StableHlo.after hostOps1 (W2 m ρ c) (Proc.devRef .tc main_v5) = _
  after_results
  rw [show W2 m ρ c (Proc.devRef .tc main_v3_1) = (dat0 (V1 m ρ) c).arrAt 4 cfg0.N from W2_arr m ρ c 4]
  rfl

/-- The attention region finds the query argument as launched: no host line and no earlier region writes it. -/
theorem entry1_query (c : Dev nD) : V3 m ρ c main_arg2 = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg2) := rfl

end Cert.Luong.Boundaries

end
-- ==== Proof.KernelValue.lean ====
/-
  The idealized kernel's two results as functions of its arguments.

  The attention region's weights and result arrays are the weights and the result of the query array it finds against the
  projected-key and value arrays it finds. What it finds: the query argument itself; as projected keys, the projection
  region's first result folded back into batches, whose entry (b, s, j) is row 4096·b + s of the projected rows, that is
  the sum over d of key(b, s, d) · W(j, d); as values, the projection region's second result folded back, whose entry
  (b, s, v) is value(b, s, v). Put together, the two result buffers end at the attention weights and the attention result
  of the four arguments.
-/
import proofs.«137832_j45165876084978_2_alg».proof.Proof.Attention
import proofs.«137832_j45165876084978_2_alg».proof.Proof.Projection
import proofs.«137832_j45165876084978_2_alg».proof.Proof.Tiles
import proofs.«137832_j45165876084978_2_alg».proof.Proof.Boundaries
import proofs.«137832_j45165876084978_2_alg».proof.Proof.LibRows

set_option maxRecDepth 16384

noncomputable section

open scoped BigOperators

namespace Cert.Luong.Value

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibSoftmaxShift
open Cert.Luong.Projection Cert.Luong.Tiles

/-- The weights of a query array against an array of projected keys are the attention weights. -/
theorem tileWeights_eq (qa ka : S4x4096x1024.Idx → EReal) (key : Arr3) (W : Mat)
    (hk : ∀ (b : Fin 4) (s : Fin 4096) (j : Fin 1024), ka (ix3 b s j) = projected key W b s j) :
    tileWeights qa ka = weights qa key W := by
  funext i
  unfold tileWeights weights
  refine congrArg (fun l : Fin 4096 → EReal => weight l (i 2)) (funext fun s' => ?_)
  unfold score
  exact Finset.sum_congr rfl fun d _ => congrArg (fun z => qa (ix3 (i 0) (i 1) d) * z) (hk (i 0) s' d)

/-- Those weights applied to an array equal to the values are the attention result. -/
theorem tileResult_eq (qa ka va : S4x4096x1024.Idx → EReal) (value key : Arr3) (W : Mat)
    (hk : ∀ (b : Fin 4) (s : Fin 4096) (j : Fin 1024), ka (ix3 b s j) = projected key W b s j)
    (hv : ∀ (b : Fin 4) (s : Fin 4096) (v : Fin 1024), va (ix3 b s v) = value (ix3 b s v)) :
    tileResult qa ka va = result value qa key W := by
  funext i
  unfold tileResult result
  rw [tileWeights_eq qa ka key W hk]
  exact Finset.sum_congr rfl fun s _ => congrArg (fun z => weights qa key W (ix3 (i 0) (i 1) s) * z) (hv (i 0) s (i 2))

variable (m : (ℓ : Loc nD τ sig) → Buf (Elt Ideal) ℓ) (ρ : Dev nD → PrngReg)

/-- Row 4096·b + s of the 16384 rows. -/
def row (b : Fin 4) (s : Fin 4096) : Fin 16384 := ⟨b.val * 4096 + s.val, by have := b.isLt; have := s.isLt; omega⟩

/-- The flattened key array's row 4096·b + s is the key's row (b, s). -/
theorem key_rows (c : Dev nD) (b : Fin 4) (s : Fin 4096) (d : Fin 1024) :
    V1 m ρ c main_v0 (ix2 (row b s) d) = m ((c : Thread nD τ).loc main_arg1) (ix3 b s d) := by
  rw [Boundaries.entry0_key]
  exact Cert.LibRows.flatten_rows_apply _ _ b s d (row b s) rfl

/-- The flattened value array's row 4096·b + s is the value's row (b, s). -/
theorem value_rows (c : Dev nD) (b : Fin 4) (s : Fin 4096) (v : Fin 1024) :
    V1 m ρ c main_v1 (ix2 (row b s) v) = m ((c : Thread nD τ).loc main_arg0) (ix3 b s v) := by
  rw [Boundaries.entry0_value]
  exact Cert.LibRows.flatten_rows_apply _ _ b s v (row b s) rfl

/-- The attention region finds the projected keys of the key and weight arguments. -/
theorem keys_entry (c : Dev nD) (b : Fin 4) (s : Fin 4096) (j : Fin 1024) :
    (V3 m ρ c main_v4 (ix3 b s j) : EReal)
      = projected (m ((c : Thread nD τ).loc main_arg1)) (m ((c : Thread nD τ).loc main_arg3)) b s j := by
  rw [Boundaries.entry1_keys, projected_array]
  refine (Cert.LibRows.unflatten_rows_apply _ _ b s j (row b s) rfl).trans ?_
  unfold projectedRows projected
  show (_ : EReal) = _
  exact Finset.sum_congr rfl fun d _ => congrArg₂ (· * ·) (key_rows m ρ c b s d) (Boundaries.entry0_weight m ρ c (ix2 j d))

/-- The attention region finds the value argument. -/
theorem values_entry (c : Dev nD) (b : Fin 4) (s : Fin 4096) (v : Fin 1024) :
    V3 m ρ c main_v5 (ix3 b s v) = m ((c : Thread nD τ).loc main_arg0) (ix3 b s v) := by
  rw [Boundaries.entry1_values, passed_array]
  refine (Cert.LibRows.unflatten_rows_apply _ _ b s v (row b s) rfl).trans ?_
  exact value_rows m ρ c b s v

/-- THE WEIGHTS BUFFER at the end of the run: the attention weights of (query, key, W) = (argument 2, 1, 3). -/
theorem weights_final (c : Dev nD) :
    W4 m ρ c (Proc.devRef .tc main_v6_1)
      = weights (m ((c : Thread nD τ).loc main_arg2)) (m ((c : Thread nD τ).loc main_arg1)) (m ((c : Thread nD τ).loc main_arg3)) := by
  rw [show W4 m ρ c (Proc.devRef .tc main_v6_1) = (dat1 (V3 m ρ) c).arrAt 4 cfg1.N from W4_arr m ρ c 4, weights_array,
    Boundaries.entry1_query]
  exact tileWeights_eq _ _ _ _ (keys_entry m ρ c)

/-- THE RESULT BUFFER at the end of the run: the attention result of (value, query, key, W) = (argument 0, 2, 1, 3). -/
theorem result_final (c : Dev nD) :
    W4 m ρ c (Proc.devRef .tc main_v6_0)
      = result (m ((c : Thread nD τ).loc main_arg0)) (m ((c : Thread nD τ).loc main_arg2)) (m ((c : Thread nD τ).loc main_arg1))
          (m ((c : Thread nD τ).loc main_arg3)) := by
  rw [show W4 m ρ c (Proc.devRef .tc main_v6_0) = (dat1 (V3 m ρ) c).arrAt 3 cfg1.N from W4_arr m ρ c 3, result_array,
    Boundaries.entry1_query]
  exact tileResult_eq _ _ _ _ _ _ (keys_entry m ρ c) (values_entry m ρ c)

end Cert.Luong.Value

end
-- ==== Proof.Reference.lean ====
/-
  The reference program's two results are the attention weights and the attention result of its arguments.

  Read one operation at a time: its first product is the projected key, its second the unscaled score; the maximum over
  the keys runs from −∞ and is then joined once more with −∞, which changes nothing; the exponentials of the differences
  are summed from zero and divided through; the last product applies the weights to the values.
-/
import proofs.«137832_j45165876084978_2_alg».proof.Proof.Gen.ReferenceIdeal.Read
import proofs.«137832_j45165876084978_2_alg».proof.Proof.Attention
import Idealize.ShloMosaic.Lib.Pipeline.Value
import Idealize.ShloMosaic.Lib.ValueIdx
import Idealize.ShloMosaic.PureOps.Ideal.Laws

noncomputable section

open scoped BigOperators

namespace Cert.Luong.Reference

open Idealize.ShloMosaic Idealize.ShloMosaic.ValueIdx Cert.ReferenceIdeal Cert.ReferenceIdeal.Read Cert.LibSoftmaxShift

/-- A query's index with the key coordinate `s` put back on the reduced last axis is `(b, q, s)`. -/
theorem lift_last3 (h : S4x4096x4096.Reduces [2] S4x4096) (b : Fin 4) (q s : Fin 4096) :
    h.lift (ix2 b q) s = ix3 b q s :=
  funext fun ax => Fin.ext (by
    match ax with
    | ⟨0, _⟩ => rfl
    | ⟨1, _⟩ => rfl
    | ⟨2, _⟩ => rfl)

/-- The first product is the projected key. -/
theorem v0_at (x1 : (⟨S4x4096x1024, .f32⟩ : BufTy).Contents (Elt Ideal)) (x3 : (⟨S1024x1024, .f32⟩ : BufTy).Contents (Elt Ideal))
    (b : Fin 4) (s : Fin 4096) (j : Fin 1024) :
    val_main_v0 (F := Ideal) x1 x3 (ix3 b s j) = Cert.Luong.projected x1 x3 b s j := by
  rw [val_main_v0_apply]
  unfold Cert.Luong.projected
  refine Finset.sum_congr rfl fun d _ => ?_
  have el : lidx_main_v0 (ix3 b s j) d = ix3 b s d :=
    funext fun a => Fin.ext (by match a with | ⟨0, _⟩ => rfl | ⟨1, _⟩ => rfl | ⟨2, _⟩ => rfl)
  have er : ridx_main_v0 (ix3 b s j) d = ix2 j d :=
    funext fun a => Fin.ext (by match a with | ⟨0, _⟩ => rfl | ⟨1, _⟩ => rfl)
  rw [el, er]

/-- The second product is the unscaled score. -/
theorem v1_at (x1 x2 : (⟨S4x4096x1024, .f32⟩ : BufTy).Contents (Elt Ideal)) (x3 : (⟨S1024x1024, .f32⟩ : BufTy).Contents (Elt Ideal))
    (b : Fin 4) (q s : Fin 4096) :
    val_main_v1 (F := Ideal) x1 x2 x3 (ix3 b q s) = Cert.Luong.score x2 x1 x3 b q s := by
  rw [val_main_v1_apply]
  unfold Cert.Luong.score
  refine Finset.sum_congr rfl fun d _ => ?_
  have el : lidx_main_v1 (ix3 b q s) d = ix3 b q d :=
    funext fun a => Fin.ext (by match a with | ⟨0, _⟩ => rfl | ⟨1, _⟩ => rfl | ⟨2, _⟩ => rfl)
  have er : ridx_main_v1 (ix3 b q s) d = ix3 b s d :=
    funext fun a => Fin.ext (by match a with | ⟨0, _⟩ => rfl | ⟨1, _⟩ => rfl | ⟨2, _⟩ => rfl)
  rw [el, er, v0_at]

/-- The reduce with the maximum as its body, from the −∞ word, is the largest score of the query over the keys. -/
theorem v2_at (x1 x2 : (⟨S4x4096x1024, .f32⟩ : BufTy).Contents (Elt Ideal)) (x3 : (⟨S1024x1024, .f32⟩ : BufTy).Contents (Elt Ideal))
    (b : Fin 4) (q : Fin 4096) :
    val_main_v2 (F := Ideal) x1 x2 x3 (ix2 b q) = top (Cert.Luong.score x2 x1 x3 b q) := by
  have h : S4x4096x4096.Reduces [2] S4x4096 := by decide
  unfold val_main_v2
  refine (Host.reduce_eq_fold_single (FloatOps.maximumf (F := Ideal) (φ := .f32)) (val_main_v1 (F := Ideal) x1 x2 x3)
    (val_main_cst (F := Ideal)) _ h _ (ix2 b q)).trans ?_
  unfold top
  rw [val_main_cst_apply, Ideal.ofBits_def, ofBits_neg_inf]
  exact Finset.fold_congr fun s _ => (congrArg (val_main_v1 (F := Ideal) x1 x2 x3) (lift_last3 h b q s)).trans (v1_at x1 x2 x3 b q s)

/-- Joining that maximum once more with −∞ changes nothing. -/
theorem v4_at (x1 x2 : (⟨S4x4096x1024, .f32⟩ : BufTy).Contents (Elt Ideal)) (x3 : (⟨S1024x1024, .f32⟩ : BufTy).Contents (Elt Ideal))
    (b : Fin 4) (q : Fin 4096) :
    val_main_v4 (F := Ideal) x1 x2 x3 (ix2 b q) = top (Cert.Luong.score x2 x1 x3 b q) := by
  rw [val_main_v4_apply, val_main_v3_apply, val_main_cst_0_apply, v2_at, Ideal.ofBits_def, ofBits_neg_inf, Ideal.maximumf_def]
  exact max_bot_left _

/-- The exponential of a score's difference from its query's maximum. -/
theorem v8_at (x1 x2 : (⟨S4x4096x1024, .f32⟩ : BufTy).Contents (Elt Ideal)) (x3 : (⟨S1024x1024, .f32⟩ : BufTy).Contents (Elt Ideal))
    (b : Fin 4) (q s : Fin 4096) :
    val_main_v8 (F := Ideal) x1 x2 x3 (ix3 b q s)
      = Ideal.exp (Cert.Luong.score x2 x1 x3 b q s - top (Cert.Luong.score x2 x1 x3 b q)) := by
  have e : idx_main_v5 (idx_main_v6 (ix3 b q s)) = ix2 b q :=
    funext fun a => Fin.ext (by match a with | ⟨0, _⟩ => rfl | ⟨1, _⟩ => rfl)
  rw [val_main_v8_apply, val_main_v7_apply, val_main_v6_apply, val_main_v5_apply, e, v4_at, v1_at,
    Ideal.hostUnary_exp_def, Ideal.subf_def]

/-- The sum of those exponentials over the keys, from the zero word. -/
theorem v9_at (x1 x2 : (⟨S4x4096x1024, .f32⟩ : BufTy).Contents (Elt Ideal)) (x3 : (⟨S1024x1024, .f32⟩ : BufTy).Contents (Elt Ideal))
    (b : Fin 4) (q : Fin 4096) :
    val_main_v9 (F := Ideal) x1 x2 x3 (ix2 b q)
      = ∑ s : Fin 4096, Ideal.exp (Cert.Luong.score x2 x1 x3 b q s - top (Cert.Luong.score x2 x1 x3 b q)) := by
  rw [val_main_v9_apply, val_main_cst_1_apply, Ideal.ofBits_def, Ideal.ofBits_zero_f32, zero_add]
  refine Finset.sum_congr rfl fun s _ => ?_
  have e : idx_main_v9 (ix2 b q) s = ix3 b q s :=
    funext fun a => Fin.ext (by match a with | ⟨0, _⟩ => rfl | ⟨1, _⟩ => rfl | ⟨2, _⟩ => rfl)
  rw [e, v8_at]

/-- The quotient is the softmax weight of the key among the query's scores. -/
theorem v12_at (x1 x2 : (⟨S4x4096x1024, .f32⟩ : BufTy).Contents (Elt Ideal)) (x3 : (⟨S1024x1024, .f32⟩ : BufTy).Contents (Elt Ideal))
    (b : Fin 4) (q s : Fin 4096) :
    val_main_v12 (F := Ideal) x1 x2 x3 (ix3 b q s) = weight (Cert.Luong.score x2 x1 x3 b q) s := by
  have e : idx_main_v10 (idx_main_v11 (ix3 b q s)) = ix2 b q :=
    funext fun a => Fin.ext (by match a with | ⟨0, _⟩ => rfl | ⟨1, _⟩ => rfl)
  rw [val_main_v12_apply, val_main_v11_apply, val_main_v10_apply, e, v9_at, v8_at, Ideal.hostDivf_def]
  rfl

/-- The reference's weights stage is the attention weights of (query, key, W) = (argument 2, argument 1, argument 3). -/
theorem weights_eq (x1 x2 : (⟨S4x4096x1024, .f32⟩ : BufTy).Contents (Elt Ideal)) (x3 : (⟨S1024x1024, .f32⟩ : BufTy).Contents (Elt Ideal)) :
    val_main_v12 (F := Ideal) x1 x2 x3 = Cert.Luong.weights x2 x1 x3 := by
  funext i
  obtain ⟨b, q, s, rfl⟩ : ∃ b q s, i = ix3 b q s := ⟨_, _, _, eq_ix3 i⟩
  rw [v12_at, Cert.Luong.weights_apply]

/-- The reference's result stage is the attention result of (value, query, key, W) = (argument 0, 2, 1, 3). -/
theorem result_eq (x0 x1 x2 : (⟨S4x4096x1024, .f32⟩ : BufTy).Contents (Elt Ideal)) (x3 : (⟨S1024x1024, .f32⟩ : BufTy).Contents (Elt Ideal)) :
    val_main_v13 (F := Ideal) x0 x1 x2 x3 = Cert.Luong.result x0 x2 x1 x3 := by
  funext i
  obtain ⟨b, q, v, rfl⟩ : ∃ b q v, i = ix3 b q v := ⟨_, _, _, eq_ix3 i⟩
  rw [val_main_v13_apply, Cert.Luong.result_apply, weights_eq]
  refine Finset.sum_congr rfl fun s _ => ?_
  have el : lidx_main_v13 (ix3 b q v) s = ix3 b q s :=
    funext fun a => Fin.ext (by match a with | ⟨0, _⟩ => rfl | ⟨1, _⟩ => rfl | ⟨2, _⟩ => rfl)
  have er : ridx_main_v13 (ix3 b q v) s = ix3 b s v :=
    funext fun a => Fin.ext (by match a with | ⟨0, _⟩ => rfl | ⟨1, _⟩ => rfl | ⟨2, _⟩ => rfl)
  rw [el, er]

end Cert.Luong.Reference

end
-- ==== Proof.lean ====
/-
  Luong attention with a projected key: the two-region kernel against its plain reference, on the extended reals.

  The kernel first projects the keys (a region over the 16384 flattened key rows, which also passes the values through),
  then, per batch and tile of 256 queries, forms the unscaled scores against the 4096 projected keys of the batch, takes each
  row's stable softmax and applies it to the batch's values (a region over 4 × 16 points). The reference computes the same
  with whole-array operations. Both end with the attention weights and the attention result of Proof/Attention.lean:
  the kernel's two result buffers by Proof/KernelValue.lean (each region's result arrays from its blocks, the host's
  re-layouts between them read at an index), the reference's by Proof/Reference.lean (its operations read one at a time).
  No rewrite was applied when the kernel was idealized, so that claim is trivial; the three frames are the generated ones,
  the reference's being its run with the results dropped.
-/
import proofs.«137832_j45165876084978_2_alg».proof.Defs
import proofs.«137832_j45165876084978_2_alg».proof.Proof.Gen.Kernel
import proofs.«137832_j45165876084978_2_alg».proof.Proof.Gen.Kernel.Skeleton
import proofs.«137832_j45165876084978_2_alg».proof.Proof.Gen.Kernel.Launch
import proofs.«137832_j45165876084978_2_alg».proof.Proof.Gen.Kernel.Points
import proofs.«137832_j45165876084978_2_alg».proof.Proof.Gen.Kernel.Frame
import proofs.«137832_j45165876084978_2_alg».proof.Proof.Gen.KernelIdeal
import proofs.«137832_j45165876084978_2_alg».proof.Proof.Gen.KernelIdeal.Skeleton
import proofs.«137832_j45165876084978_2_alg».proof.Proof.Gen.KernelIdeal.Launch
import proofs.«137832_j45165876084978_2_alg».proof.Proof.Gen.KernelIdeal.Points
import proofs.«137832_j45165876084978_2_alg».proof.Proof.Gen.KernelIdeal.Frame
import proofs.«137832_j45165876084978_2_alg».proof.Proof.Gen.ReferenceIdeal
import proofs.«137832_j45165876084978_2_alg».proof.Proof.Gen.Pre_finite_inputs
import proofs.«137832_j45165876084978_2_alg».proof.Proof.Gen.ReferenceIdeal.Run
import proofs.«137832_j45165876084978_2_alg».proof.Proof.Gen.ReferenceIdeal.Read
import proofs.«137832_j45165876084978_2_alg».proof.Proof.KernelRun
import proofs.«137832_j45165876084978_2_alg».proof.Proof.KernelValue
import proofs.«137832_j45165876084978_2_alg».proof.Proof.Reference
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_ideal : Cert.frame_KernelIdeal := fun m ρ _ => Cert.KernelIdeal.Gen.frame m ρ

/-- The idealized reference runs and leaves its arguments unchanged: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the four arguments both programs end with the attention result and the attention weights
    of those arguments. -/
theorem algebraic : Cert.algebraic_KernelIdeal_ReferenceIdeal := by
  intro m ρ m' ρ' _ hagree
  refine ⟨fun c => Cert.Luong.result (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    fun c => Cert.Luong.weights (m ((c.tc : Thread Cert.KernelIdeal.nD Cert.KernelIdeal.τ).loc Cert.KernelIdeal.main_arg2))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Luong.Value.result_final m ρ c), (h c).2.1.trans (Cert.Luong.Value.weights_final m ρ c), (h c).2.2⟩)
      (Cert.Luong.Run.run_results (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v13_eq, Cert.Luong.Reference.result_eq,
        (hagree c).1, (hagree c).2.1, (hagree c).2.2.1, (hagree c).2.2.2]
    · rw [(h c).2.1, Cert.ReferenceIdeal.Read.val_main_v12_eq, Cert.Luong.Reference.weights_eq,
        (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
